-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 12
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S400x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S400x128, .f32⟩
  | .local _ .vmem, ⟨13, _⟩ => ⟨S400x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S400x128, .f32⟩
  | .local _ .vmem, ⟨18, _⟩ => ⟨S400x128, .f32⟩
  | .local _ .vmem, ⟨19, _⟩ => ⟨S400x128, .f32⟩
  | .local _ .vmem, ⟨20, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  shapeCasts_S400x128_S400x128 : S400x128.ShapeCasts S400x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_0) S400x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_1) S400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S128x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .i1⟩
  | .hbm, ⟨23, _⟩ => ⟨S_, .f32⟩
  | .hbm, ⟨24, _⟩ => ⟨S10000x128, .f32⟩
  | .hbm, ⟨25, _⟩ => ⟨S10000x128, .i1⟩
  | .hbm, ⟨26, _⟩ => ⟨S_, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_cst_1 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v4 : Ref sig .tc := ⟨.hbm, 29, rfl⟩
abbrev main_call0_v5 : Ref sig .tc := ⟨.hbm, 30, rfl⟩
abbrev main_call0_cst_2 : Ref sig .tc := ⟨.hbm, 31, rfl⟩
abbrev main_call0_v6 : Ref sig .tc := ⟨.hbm, 32, rfl⟩
abbrev main_call0_v7 : Ref sig .tc := ⟨.hbm, 33, rfl⟩
abbrev main_v14 : Ref sig .tc := ⟨.hbm, 34, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KBody0.lean ====
/-
  The first pass, one grid point at a time.

  At grid point t the first pass is handed rows 400·t … 400·t+399 of the adjacency matrix (a 400 × 10000 block), the
  whole feature matrix, and the same 400 rows of the feature matrix. It leaves in its first result's block the product
  of the adjacency rows with the feature matrix, and in its second result's block that product times the feature
  rows, entry by entry. Both blocks are written whole, so what each holds afterwards is a function of the three
  input blocks alone. The feature matrix is read through two windows, so the pass holds it at two half shares.
-/
import proofs.«128646_g1649267442177_cont_week2b_248_8_alg».proof.Proof.Gen.Kernel.Launch
import proofs.«128646_g1649267442177_cont_week2b_248_8_alg».proof.Proof.Gen.Kernel.Skeleton
import proofs.«128646_g1649267442177_cont_week2b_248_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the pass loads and stores through. -/
abbrev rA0 : Rect S400x10000 := Rect.unit (s := S400x10000) ![0, 0] S400x10000.size inb_S400x10000_S400x10000_0_0
abbrev rX0 : Rect S10000x128 := Rect.unit (s := S10000x128) ![0, 0] S10000x128.size inb_S10000x128_S10000x128_0_0
abbrev rB0 : Rect S400x128 := Rect.unit (s := S400x128) ![0, 0] S400x128.size inb_S400x128_S400x128_0_0

/-- The first result's block after the pass: the adjacency rows times the feature matrix. -/
def out0_3 (x0 : Vec F S400x10000 .f32) (x1 : Vec F S10000x128 .f32) : Vec F S400x128 .f32 :=
  View.canon [⟨rB0, k0_pay1 (View.ld x0 rA0) (View.ld x1 rX0)⟩]
/-- The second result's block after the pass: that product times the feature rows, entry by entry. -/
def out0_4 (x0 : Vec F S400x10000 .f32) (x1 : Vec F S10000x128 .f32) (x2 : Vec F S400x128 .f32) : Vec F S400x128 .f32 :=
  View.canon [⟨rB0, k0_pay2 (View.ld x0 rA0) (View.ld x1 rX0) (View.ld x2 rB0)⟩]

/-- One whole-buffer store covers the buffer. -/
theorem cover0 (p0 : Vec F S400x128 .f32) (y : S400x128.Idx) :
    ∃ pc ∈ ([⟨rB0, p0⟩] : List (View.Piece (Elt F) S400x128 .f32)), y ∈ pc.1.set :=
  View.cover_of_tiled [⟨rB0, p0⟩] S400x128.size (by rfl) y

set_option maxHeartbeats 1000000 in
/-- The pass on whole staging buffers: the three inputs' as read, the two results' at anything, it returns with the
    inputs' unchanged and the results' at the two functions of the inputs above. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x128 .f32) (harg4 : arg4.IsWhole)
    (arg5 : Memref sig .tc .vmem S400x128 .f32) (harg5 : arg5.IsWhole)
    (x0 : Vec F S400x10000 .f32) (x1 : Vec F S10000x128 .f32) (x2 : Vec F S400x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__pass1_body i arg1 harg1 arg2 harg2 arg3 harg3 arg4 harg4 arg5 harg5) K := by
  simp only [cc0__pass1_body_eq_skeleton]; unfold cc0__pass1_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The first pass's proof data on core `c`: the arrays as the pass finds them; after the body each input's buffer at
    its block and each result's at its function of the input blocks; the feature matrix held at two half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first pass, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second pass, one grid point at a time.

  At grid point t the second pass is handed rows 400·t … 400·t+399 of the adjacency matrix, the whole of the first pass's
  second result, the same 400 rows of its first result, the two weight matrices and the bias row. It leaves in its
  first result's block the sum of the two small products and the bias row, and in its second result's block the
  exponential linear unit of that. Both blocks are written whole, so what each holds afterwards is a function of the six
  input blocks alone.
-/
import proofs.«128646_g1649267442177_cont_week2b_248_8_alg».proof.Proof.Gen.Kernel.Launch
import proofs.«128646_g1649267442177_cont_week2b_248_8_alg».proof.Proof.Gen.Kernel.Skeleton
import proofs.«128646_g1649267442177_cont_week2b_248_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the pass loads and stores through. -/
abbrev rA1 : Rect S400x10000 := Rect.unit (s := S400x10000) ![0, 0] S400x10000.size inb_S400x10000_S400x10000_0_0
abbrev rX1 : Rect S10000x128 := Rect.unit (s := S10000x128) ![0, 0] S10000x128.size inb_S10000x128_S10000x128_0_0
abbrev rB1 : Rect S400x128 := Rect.unit (s := S400x128) ![0, 0] S400x128.size inb_S400x128_S400x128_0_0
abbrev rW1 : Rect S128x128 := Rect.unit (s := S128x128) ![0, 0] S128x128.size inb_S128x128_S128x128_0_0
abbrev rR1 : Rect S1x128 := Rect.unit (s := S1x128) ![0, 0] S1x128.size inb_S1x128_S1x128_0_0

/-- The first result's block after the pass: the value before the nonlinearity. -/
def out1_6 (x0 : Vec F S400x10000 .f32) (x1 : Vec F S10000x128 .f32) (x2 : Vec F S400x128 .f32) (x3 : Vec F S128x128 .f32) (x4 : Vec F S128x128 .f32) (x5 : Vec F S1x128 .f32) : Vec F S400x128 .f32 :=
  View.canon [⟨rB1, k1_pay1 (View.ld x0 rA1) (View.ld x1 rX1) (View.ld x2 rB1) (View.ld x3 rW1) (View.ld x4 rW1) (View.ld x5 rR1)⟩]
/-- The second result's block after the pass: the exponential linear unit of the first. -/
def out1_7 (x0 : Vec F S400x10000 .f32) (x1 : Vec F S10000x128 .f32) (x2 : Vec F S400x128 .f32) (x3 : Vec F S128x128 .f32) (x4 : Vec F S128x128 .f32) (x5 : Vec F S1x128 .f32) : Vec F S400x128 .f32 :=
  View.canon [⟨rB1, k1_pay2 (View.ld x0 rA1) (View.ld x1 rX1) (View.ld x2 rB1) (View.ld x3 rW1) (View.ld x4 rW1) (View.ld x5 rR1)⟩]

/-- One whole-buffer store covers the buffer. -/
theorem cover1 (p0 : Vec F S400x128 .f32) (y : S400x128.Idx) :
    ∃ pc ∈ ([⟨rB1, p0⟩] : List (View.Piece (Elt F) S400x128 .f32)), y ∈ pc.1.set :=
  View.cover_of_tiled [⟨rB1, p0⟩] S400x128.size (by rfl) y

set_option maxHeartbeats 1000000 in
/-- The pass on whole staging buffers: the six inputs' as read, the two results' at anything, it returns with the
    inputs' unchanged and the results' at the two functions of the inputs above. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S400x128 .f32) (harg8 : arg8.IsWhole)
    (x0 : Vec F S400x10000 .f32) (x1 : Vec F S10000x128 .f32) (x2 : Vec F S400x128 .f32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8) K := by
  simp only [cc1__pass2_body_eq_skeleton]; unfold cc1__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-- The second pass's proof data on core `c`: the arrays as the pass finds them; after the body each input's buffer at
    its block and each result's at its function of the input blocks; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second pass, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KShare0.lean ====
/-
  The first pass's arrays and the buffers behind them.

  The first pass reads the feature matrix through two windows, so its five windows sit on four buffers. Entering the
  pass, the feature matrix's buffer, held whole, is split into two half shares, one per window; leaving it, the two
  halves — still at the entry contents, since both windows only read — are joined again. The other three buffers
  (the adjacency matrix and the two results) pass through at the full share.
-/
import proofs.«128646_g1649267442177_cont_week2b_248_8_alg».proof.Proof.Gen.Kernel.Launch
import proofs.«128646_g1649267442177_cont_week2b_248_8_alg».proof.Proof.Gen.Kernel.Skeleton
import proofs.«128646_g1649267442177_cont_week2b_248_8_alg».proof.Proof.Gen.Kernel.Points
import proofs.«128646_g1649267442177_cont_week2b_248_8_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four buffers behind the first pass's five windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1) ∗ (((c : Thread nD τ).loc main_arg0) ↦{fullShare} V' main_arg0)
          ∗ (((c : Thread nD τ).loc main_v2_0) ↦{fullShare} V' main_v2_0) ∗ (((c : Thread nD τ).loc main_v2_1) ↦{fullShare} V' main_v2_1)) := by
  unfold Pipeline.arrBufs
  exact bigSep_eq_bigSepL_of_eq [main_arg1, main_arg0, main_v2_0, main_v2_1] (by decide) (by decide) _

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl

/-- The first pass's arrays window by window, each at the share the pass holds it at. -/
theorem arrays0_eq (c : Dev nD) (Fw : (w : Fin cfg0.W) → Buf (Elt F) ((cfg0.win w).arr.view.loc (c : Thread nD τ)))
    (g1 : Buf (Elt F) ((c : Thread nD τ).loc main_arg1)) (g0 g0' : Buf (Elt F) ((c : Thread nD τ).loc main_arg0))
    (g3 : Buf (Elt F) ((c : Thread nD τ).loc main_v2_0)) (g4 : Buf (Elt F) ((c : Thread nD τ).loc main_v2_1))
    (h0 : Fw 0 = g1) (h1 : Fw 1 = g0) (h2 : Fw 2 = g0') (h3 : Fw 3 = g3) (h4 : Fw 4 = g4) :
    ((dat0 V c).arrays Fw : sProp 𝕄)
      = iprop((((c : Thread nD τ).loc main_arg1) ↦{fullShare} g1) ∗ (((c : Thread nD τ).loc main_arg0) ↦{fullShare.left} g0) ∗ (((c : Thread nD τ).loc main_arg0) ↦{fullShare.right} g0')
          ∗ (((c : Thread nD τ).loc main_v2_0) ↦{fullShare} g3) ∗ (((c : Thread nD τ).loc main_v2_1) ↦{fullShare} g4)) := by
  subst h0 h1 h2 h3 h4
  unfold Dat.arrays
  rw [bigSep_W0]
  rw [(arr_whole0 0).set_eq_univ, (arr_whole0 1).set_eq_univ, (arr_whole0 3).set_eq_univ, (arr_whole0 4).set_eq_univ,
    share0_0, share0_1, share0_2, share0_3, share0_4]

/-- ENTRY: the unscoped buffers at the entry contents are the pass's arrays at those contents, the feature matrix
    dealt in two halves, and the buffers the pass does not touch. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  refine BIClass.sep_mono ?_ (BI.Entails.refl _)
  show (Pipeline.arrBufs (Ix := Unit) (Name := ℕ) (U := UR sig nD τ) (Lvl := ℕ) spec0 c (V c) : sProp 𝕄) ⊢ _
  rw [arrBufs0_eq c (V c),
    arrays0_eq V c ((dat0 V c).arrAt · 0) (V c main_arg1) (V c main_arg0) (V c main_arg0) (V c main_v2_0) (V c main_v2_1)
      (A_eq0 V c 0) (A_eq0 V c 1) (A_eq0 V c 2) (A_eq0 V c 3) (A_eq0 V c 4)]
  iintro ⟨H1, H0, H3, H4⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H3]; · iexact H3
  iexact H4

/-- EXIT: the pass's arrays after the last write-back — the inputs as entered, the two halves of the feature matrix
    joined — and the untouched buffers are the unscoped buffers at the exit contents `V'`. -/
theorem exit0 (c : Dev nD) (V' : (b : Ref sig .tc) → Buf (Elt F) ((c : Thread nD τ).loc b))
    (h1 : V' main_arg1 = V c main_arg1) (h0 : V' main_arg0 = V c main_arg0)
    (h3 : (dat0 V c).arrAt 3 cfg0.N = V' main_v2_0) (h4 : (dat0 V c).arrAt 4 cfg0.N = V' main_v2_1)
    (hrest : ∀ b, b ∉ ([main_arg1, main_arg0, main_v2_0, main_v2_1] : List (Ref sig .tc)) → V' b = V c b) :
    iprop((dat0 V c).arrays ((dat0 V c).arrAt · cfg0.N)
          ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine BIClass.sep_mono ?_ ?_
  · show _ ⊢ (Pipeline.arrBufs (Ix := Unit) (Name := ℕ) (U := UR sig nD τ) (Lvl := ℕ) spec0 c V' : sProp 𝕄)
    rw [arrBufs0_eq c V',
      arrays0_eq V c ((dat0 V c).arrAt · cfg0.N) (V' main_arg1) (V' main_arg0) (V' main_arg0) (V' main_v2_0) (V' main_v2_1)
        ((((dat0 V c).arrAt_in 0 rfl _).trans (A_eq0 V c 0)).trans h1.symm)
        ((((dat0 V c).arrAt_in 1 rfl _).trans (A_eq0 V c 1)).trans h0.symm)
        ((((dat0 V c).arrAt_in 2 rfl _).trans (A_eq0 V c 2)).trans h0.symm) h3 h4]
    iintro ⟨H1, H0l, H0r, H3, H4⟩
    ihave H0 := (pointsTo_share (PosShare.mem_left_op_right fullShare)).2 $$ [H0l H0r]
    · isplitl [H0l]; · iexact H0l
      iexact H0r
    isplitl [H1]; · iexact H1
    isplitl [H0]; · iexact H0
    isplitl [H3]; · iexact H3
    iexact H4
  · show (Pipeline.unscopedRest (Ix := Unit) (Name := ℕ) (U := UR sig nD τ) (Lvl := ℕ) spec0 c (V c) : sProp 𝕄)
      ⊢ Pipeline.unscopedRest (Ix := Unit) (Name := ℕ) (U := UR sig nD τ) (Lvl := ℕ) spec0 c V'
    rw [unscopedRest0_eq c (V c), unscopedRest0_eq c V', hrest main_arg2 (by decide), hrest main_arg3 (by decide), hrest main_arg4 (by decide),
      hrest main_arg5 (by decide), hrest main_v0 (by decide), hrest main_v1 (by decide), hrest main_v3_0 (by decide), hrest main_v3_1 (by decide)]

end Cert.Kernel.Hand

end
-- ==== Proof.KRun.lean ====
/-
  The whole run of the program: the bias row computed on the host, the first pass, the second pass.

  Between items every unscoped buffer of the core is held whole at known contents: the launch contents; then those
  after the two host operations; then, after the first pass, the same with its two results at what its write-backs
  leave; then, after the second pass, the same with its two results likewise. Every weakly fair execution
  terminates without a fault in a state whose unscoped buffers hold the last of these.
-/
import proofs.«128646_g1649267442177_cont_week2b_248_8_alg».proof.Proof.Gen.Kernel.Launch
import proofs.«128646_g1649267442177_cont_week2b_248_8_alg».proof.Proof.Gen.Kernel.Skeleton
import proofs.«128646_g1649267442177_cont_week2b_248_8_alg».proof.Proof.Gen.Kernel.Points
import proofs.«128646_g1649267442177_cont_week2b_248_8_alg».proof.Proof.Gen.Kernel.Regions
import proofs.«128646_g1649267442177_cont_week2b_248_8_alg».proof.Proof.KBody0
import proofs.«128646_g1649267442177_cont_week2b_248_8_alg».proof.Proof.KBody1
import proofs.«128646_g1649267442177_cont_week2b_248_8_alg».proof.Proof.KShare0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => (s₀ m ρ).mem ((c : Dev nD), b)
/-- After the two host operations (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pass: its two results at what the write-backs leave, every other buffer as entered. -/
def W2 (c : Dev nD) : Valuation τ sig (Elt F) :=
  Function.update (Function.update (W1 m ρ c) main_v2_0 ((dat0 (V1 m ρ) c).arrAt 3 cfg0.N)) main_v2_1 ((dat0 (V1 m ρ) c).arrAt 4 cfg0.N)
theorem W2_v2_0 (c : Dev nD) : W2 m ρ c (Proc.devRef .tc main_v2_0) = (dat0 (V1 m ρ) c).arrAt 3 cfg0.N := by
  unfold W2
  rw [Function.update_of_ne (StableHlo.devRef_ne_of_ne (by decide) : (Proc.devRef .tc main_v2_0 : DevRef τ sig) ≠ Proc.devRef .tc main_v2_1),
    Function.update_self]
theorem W2_v2_1 (c : Dev nD) : W2 m ρ c (Proc.devRef .tc main_v2_1) = (dat0 (V1 m ρ) c).arrAt 4 cfg0.N := by
  unfold W2; rw [Function.update_self]
theorem W2_of_ne (c : Dev nD) (r : Ref sig .tc) (h : r ∉ ([main_v2_0, main_v2_1] : List (Ref sig .tc))) :
    W2 m ρ c (Proc.devRef .tc r) = W1 m ρ c (Proc.devRef .tc r) := by
  simp only [W2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1)]
abbrev V2 : (c : Dev nD) → (b : Ref sig .tc) → Buf (Elt F) ((c : Thread nD τ).loc b) := fun c b => W2 m ρ c b

/-- After the second pass: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := (W4_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := (W4_arr m ρ c 3).trans (((dat1 (V2 m ρ) c).arrAt_in 3 rfl _).trans (A_eq1 (V2 m ρ) c 3))
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := (W4_arr m ρ c 4).trans (((dat1 (V2 m ρ) c).arrAt_in 4 rfl _).trans (A_eq1 (V2 m ρ) c 4))
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its pass's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- The first pass over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V1 m ρ) c (V2 m ρ c)
      (W2_of_ne m ρ c main_arg1 (by decide)) (W2_of_ne m ρ c main_arg0 (by decide))
      (W2_v2_0 m ρ c).symm (W2_v2_1 m ρ c).symm
      (fun b hb => W2_of_ne m ρ c b (fun h => hb (List.mem_cons_of_mem _ (List.mem_cons_of_mem _ h))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second pass over the thread state: entered from every unscoped buffer at `W2`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer of every core at the last contents above. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

/-- The run with the two results named: each ends at what the second pass's write-backs leave in its array. -/
theorem run_results : θ_run defs (onTc (τ := τ) (main (F := F))) ⟨m, fun _ => 0, ρ⟩ (fun r => ∀ c : Dev nD,
      r.2.mem ((c.tc : Thread nD τ).loc main_v3_0) = (dat1 (V2 m ρ) c).arrAt 6 cfg1.N
      ∧ r.2.mem ((c.tc : Thread nD τ).loc main_v3_1) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3_0 (by decide))).trans (W4_arr m ρ c 6), (h c _ (mem_uc main_v3_1 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.Kernel.Hand

end
-- ==== Proof.KIBody0.lean ====
/-
  The first pass, one grid point at a time.

  At grid point t the first pass is handed rows 400·t … 400·t+399 of the adjacency matrix (a 400 × 10000 block), the
  whole feature matrix, and the same 400 rows of the feature matrix. It leaves in its first result's block the product
  of the adjacency rows with the feature matrix, and in its second result's block that product times the feature
  rows, entry by entry. Both blocks are written whole, so what each holds afterwards is a function of the three
  input blocks alone. The feature matrix is read through two windows, so the pass holds it at two half shares.
-/
import proofs.«128646_g1649267442177_cont_week2b_248_8_alg».proof.Proof.Gen.KernelIdeal.Launch
import proofs.«128646_g1649267442177_cont_week2b_248_8_alg».proof.Proof.Gen.KernelIdeal.Skeleton
import proofs.«128646_g1649267442177_cont_week2b_248_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the pass loads and stores through. -/
abbrev rA0 : Rect S400x10000 := Rect.unit (s := S400x10000) ![0, 0] S400x10000.size inb_S400x10000_S400x10000_0_0
abbrev rX0 : Rect S10000x128 := Rect.unit (s := S10000x128) ![0, 0] S10000x128.size inb_S10000x128_S10000x128_0_0
abbrev rB0 : Rect S400x128 := Rect.unit (s := S400x128) ![0, 0] S400x128.size inb_S400x128_S400x128_0_0

/-- The first result's block after the pass: the adjacency rows times the feature matrix. -/
def out0_3 (x0 : Vec F S400x10000 .f32) (x1 : Vec F S10000x128 .f32) : Vec F S400x128 .f32 :=
  View.canon [⟨rB0, k0_pay1 (View.ld x0 rA0) (View.ld x1 rX0)⟩]
/-- The second result's block after the pass: that product times the feature rows, entry by entry. -/
def out0_4 (x0 : Vec F S400x10000 .f32) (x1 : Vec F S10000x128 .f32) (x2 : Vec F S400x128 .f32) : Vec F S400x128 .f32 :=
  View.canon [⟨rB0, k0_pay2 (View.ld x0 rA0) (View.ld x1 rX0) (View.ld x2 rB0)⟩]

/-- One whole-buffer store covers the buffer. -/
theorem cover0 (p0 : Vec F S400x128 .f32) (y : S400x128.Idx) :
    ∃ pc ∈ ([⟨rB0, p0⟩] : List (View.Piece (Elt F) S400x128 .f32)), y ∈ pc.1.set :=
  View.cover_of_tiled [⟨rB0, p0⟩] S400x128.size (by rfl) y

set_option maxHeartbeats 1000000 in
/-- The pass on whole staging buffers: the three inputs' as read, the two results' at anything, it returns with the
    inputs' unchanged and the results' at the two functions of the inputs above. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S400x128 .f32) (harg4 : arg4.IsWhole)
    (arg5 : Memref sig .tc .vmem S400x128 .f32) (harg5 : arg5.IsWhole)
    (x0 : Vec F S400x10000 .f32) (x1 : Vec F S10000x128 .f32) (x2 : Vec F S400x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__pass1_body i arg1 harg1 arg2 harg2 arg3 harg3 arg4 harg4 arg5 harg5) K := by
  simp only [cc0__pass1_body_eq_skeleton]; unfold cc0__pass1_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The first pass's proof data on core `c`: the arrays as the pass finds them; after the body each input's buffer at
    its block and each result's at its function of the input blocks; the feature matrix held at two half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first pass, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  The second pass, one grid point at a time.

  At grid point t the second pass is handed rows 400·t … 400·t+399 of the adjacency matrix, the whole of the first pass's
  second result, the same 400 rows of its first result, the two weight matrices and the bias row. It leaves in its
  first result's block the sum of the two small products and the bias row, and in its second result's block the
  exponential linear unit of that. Both blocks are written whole, so what each holds afterwards is a function of the six
  input blocks alone.
-/
import proofs.«128646_g1649267442177_cont_week2b_248_8_alg».proof.Proof.Gen.KernelIdeal.Launch
import proofs.«128646_g1649267442177_cont_week2b_248_8_alg».proof.Proof.Gen.KernelIdeal.Skeleton
import proofs.«128646_g1649267442177_cont_week2b_248_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the pass loads and stores through. -/
abbrev rA1 : Rect S400x10000 := Rect.unit (s := S400x10000) ![0, 0] S400x10000.size inb_S400x10000_S400x10000_0_0
abbrev rX1 : Rect S10000x128 := Rect.unit (s := S10000x128) ![0, 0] S10000x128.size inb_S10000x128_S10000x128_0_0
abbrev rB1 : Rect S400x128 := Rect.unit (s := S400x128) ![0, 0] S400x128.size inb_S400x128_S400x128_0_0
abbrev rW1 : Rect S128x128 := Rect.unit (s := S128x128) ![0, 0] S128x128.size inb_S128x128_S128x128_0_0
abbrev rR1 : Rect S1x128 := Rect.unit (s := S1x128) ![0, 0] S1x128.size inb_S1x128_S1x128_0_0

/-- The first result's block after the pass: the value before the nonlinearity. -/
def out1_6 (x0 : Vec F S400x10000 .f32) (x1 : Vec F S10000x128 .f32) (x2 : Vec F S400x128 .f32) (x3 : Vec F S128x128 .f32) (x4 : Vec F S128x128 .f32) (x5 : Vec F S1x128 .f32) : Vec F S400x128 .f32 :=
  View.canon [⟨rB1, k1_pay1 (View.ld x0 rA1) (View.ld x1 rX1) (View.ld x2 rB1) (View.ld x3 rW1) (View.ld x4 rW1) (View.ld x5 rR1)⟩]
/-- The second result's block after the pass: the exponential linear unit of the first. -/
def out1_7 (x0 : Vec F S400x10000 .f32) (x1 : Vec F S10000x128 .f32) (x2 : Vec F S400x128 .f32) (x3 : Vec F S128x128 .f32) (x4 : Vec F S128x128 .f32) (x5 : Vec F S1x128 .f32) : Vec F S400x128 .f32 :=
  View.canon [⟨rB1, k1_pay2 (View.ld x0 rA1) (View.ld x1 rX1) (View.ld x2 rB1) (View.ld x3 rW1) (View.ld x4 rW1) (View.ld x5 rR1)⟩]

/-- One whole-buffer store covers the buffer. -/
theorem cover1 (p0 : Vec F S400x128 .f32) (y : S400x128.Idx) :
    ∃ pc ∈ ([⟨rB1, p0⟩] : List (View.Piece (Elt F) S400x128 .f32)), y ∈ pc.1.set :=
  View.cover_of_tiled [⟨rB1, p0⟩] S400x128.size (by rfl) y

set_option maxHeartbeats 1000000 in
/-- The pass on whole staging buffers: the six inputs' as read, the two results' at anything, it returns with the
    inputs' unchanged and the results' at the two functions of the inputs above. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S400x128 .f32) (harg8 : arg8.IsWhole)
    (x0 : Vec F S400x10000 .f32) (x1 : Vec F S10000x128 .f32) (x2 : Vec F S400x128 .f32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8) K := by
  simp only [cc1__pass2_body_eq_skeleton]; unfold cc1__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-- The second pass's proof data on core `c`: the arrays as the pass finds them; after the body each input's buffer at
    its block and each result's at its function of the input blocks; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second pass, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIShare0.lean ====
/-
  The first pass's arrays and the buffers behind them.

  The first pass reads the feature matrix through two windows, so its five windows sit on four buffers. Entering the
  pass, the feature matrix's buffer, held whole, is split into two half shares, one per window; leaving it, the two
  halves — still at the entry contents, since both windows only read — are joined again. The other three buffers
  (the adjacency matrix and the two results) pass through at the full share.
-/
import proofs.«128646_g1649267442177_cont_week2b_248_8_alg».proof.Proof.Gen.KernelIdeal.Launch
import proofs.«128646_g1649267442177_cont_week2b_248_8_alg».proof.Proof.Gen.KernelIdeal.Skeleton
import proofs.«128646_g1649267442177_cont_week2b_248_8_alg».proof.Proof.Gen.KernelIdeal.Points
import proofs.«128646_g1649267442177_cont_week2b_248_8_alg».proof.Proof.KIBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four buffers behind the first pass's five windows, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1) ∗ (((c : Thread nD τ).loc main_arg0) ↦{fullShare} V' main_arg0)
          ∗ (((c : Thread nD τ).loc main_v2_0) ↦{fullShare} V' main_v2_0) ∗ (((c : Thread nD τ).loc main_v2_1) ↦{fullShare} V' main_v2_1)) := by
  unfold Pipeline.arrBufs
  exact bigSep_eq_bigSepL_of_eq [main_arg1, main_arg0, main_v2_0, main_v2_1] (by decide) (by decide) _

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl

/-- The first pass's arrays window by window, each at the share the pass holds it at. -/
theorem arrays0_eq (c : Dev nD) (Fw : (w : Fin cfg0.W) → Buf (Elt F) ((cfg0.win w).arr.view.loc (c : Thread nD τ)))
    (g1 : Buf (Elt F) ((c : Thread nD τ).loc main_arg1)) (g0 g0' : Buf (Elt F) ((c : Thread nD τ).loc main_arg0))
    (g3 : Buf (Elt F) ((c : Thread nD τ).loc main_v2_0)) (g4 : Buf (Elt F) ((c : Thread nD τ).loc main_v2_1))
    (h0 : Fw 0 = g1) (h1 : Fw 1 = g0) (h2 : Fw 2 = g0') (h3 : Fw 3 = g3) (h4 : Fw 4 = g4) :
    ((dat0 V c).arrays Fw : sProp 𝕄)
      = iprop((((c : Thread nD τ).loc main_arg1) ↦{fullShare} g1) ∗ (((c : Thread nD τ).loc main_arg0) ↦{fullShare.left} g0) ∗ (((c : Thread nD τ).loc main_arg0) ↦{fullShare.right} g0')
          ∗ (((c : Thread nD τ).loc main_v2_0) ↦{fullShare} g3) ∗ (((c : Thread nD τ).loc main_v2_1) ↦{fullShare} g4)) := by
  subst h0 h1 h2 h3 h4
  unfold Dat.arrays
  rw [bigSep_W0]
  rw [(arr_whole0 0).set_eq_univ, (arr_whole0 1).set_eq_univ, (arr_whole0 3).set_eq_univ, (arr_whole0 4).set_eq_univ,
    share0_0, share0_1, share0_2, share0_3, share0_4]

/-- ENTRY: the unscoped buffers at the entry contents are the pass's arrays at those contents, the feature matrix
    dealt in two halves, and the buffers the pass does not touch. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  refine BIClass.sep_mono ?_ (BI.Entails.refl _)
  show (Pipeline.arrBufs (Ix := Unit) (Name := ℕ) (U := UR sig nD τ) (Lvl := ℕ) spec0 c (V c) : sProp 𝕄) ⊢ _
  rw [arrBufs0_eq c (V c),
    arrays0_eq V c ((dat0 V c).arrAt · 0) (V c main_arg1) (V c main_arg0) (V c main_arg0) (V c main_v2_0) (V c main_v2_1)
      (A_eq0 V c 0) (A_eq0 V c 1) (A_eq0 V c 2) (A_eq0 V c 3) (A_eq0 V c 4)]
  iintro ⟨H1, H0, H3, H4⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H3]; · iexact H3
  iexact H4

/-- EXIT: the pass's arrays after the last write-back — the inputs as entered, the two halves of the feature matrix
    joined — and the untouched buffers are the unscoped buffers at the exit contents `V'`. -/
theorem exit0 (c : Dev nD) (V' : (b : Ref sig .tc) → Buf (Elt F) ((c : Thread nD τ).loc b))
    (h1 : V' main_arg1 = V c main_arg1) (h0 : V' main_arg0 = V c main_arg0)
    (h3 : (dat0 V c).arrAt 3 cfg0.N = V' main_v2_0) (h4 : (dat0 V c).arrAt 4 cfg0.N = V' main_v2_1)
    (hrest : ∀ b, b ∉ ([main_arg1, main_arg0, main_v2_0, main_v2_1] : List (Ref sig .tc)) → V' b = V c b) :
    iprop((dat0 V c).arrays ((dat0 V c).arrAt · cfg0.N)
          ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine BIClass.sep_mono ?_ ?_
  · show _ ⊢ (Pipeline.arrBufs (Ix := Unit) (Name := ℕ) (U := UR sig nD τ) (Lvl := ℕ) spec0 c V' : sProp 𝕄)
    rw [arrBufs0_eq c V',
      arrays0_eq V c ((dat0 V c).arrAt · cfg0.N) (V' main_arg1) (V' main_arg0) (V' main_arg0) (V' main_v2_0) (V' main_v2_1)
        ((((dat0 V c).arrAt_in 0 rfl _).trans (A_eq0 V c 0)).trans h1.symm)
        ((((dat0 V c).arrAt_in 1 rfl _).trans (A_eq0 V c 1)).trans h0.symm)
        ((((dat0 V c).arrAt_in 2 rfl _).trans (A_eq0 V c 2)).trans h0.symm) h3 h4]
    iintro ⟨H1, H0l, H0r, H3, H4⟩
    ihave H0 := (pointsTo_share (PosShare.mem_left_op_right fullShare)).2 $$ [H0l H0r]
    · isplitl [H0l]; · iexact H0l
      iexact H0r
    isplitl [H1]; · iexact H1
    isplitl [H0]; · iexact H0
    isplitl [H3]; · iexact H3
    iexact H4
  · show (Pipeline.unscopedRest (Ix := Unit) (Name := ℕ) (U := UR sig nD τ) (Lvl := ℕ) spec0 c (V c) : sProp 𝕄)
      ⊢ Pipeline.unscopedRest (Ix := Unit) (Name := ℕ) (U := UR sig nD τ) (Lvl := ℕ) spec0 c V'
    rw [unscopedRest0_eq c (V c), unscopedRest0_eq c V', hrest main_arg2 (by decide), hrest main_arg3 (by decide), hrest main_arg4 (by decide),
      hrest main_arg5 (by decide), hrest main_v0 (by decide), hrest main_v1 (by decide), hrest main_v3_0 (by decide), hrest main_v3_1 (by decide)]

end Cert.KernelIdeal.Hand

end
-- ==== Proof.KIRun.lean ====
/-
  The whole run of the program: the bias row computed on the host, the first pass, the second pass.

  Between items every unscoped buffer of the core is held whole at known contents: the launch contents; then those
  after the two host operations; then, after the first pass, the same with its two results at what its write-backs
  leave; then, after the second pass, the same with its two results likewise. Every weakly fair execution
  terminates without a fault in a state whose unscoped buffers hold the last of these.
-/
import proofs.«128646_g1649267442177_cont_week2b_248_8_alg».proof.Proof.Gen.KernelIdeal.Launch
import proofs.«128646_g1649267442177_cont_week2b_248_8_alg».proof.Proof.Gen.KernelIdeal.Skeleton
import proofs.«128646_g1649267442177_cont_week2b_248_8_alg».proof.Proof.Gen.KernelIdeal.Points
import proofs.«128646_g1649267442177_cont_week2b_248_8_alg».proof.Proof.Gen.KernelIdeal.Regions
import proofs.«128646_g1649267442177_cont_week2b_248_8_alg».proof.Proof.KIBody0
import proofs.«128646_g1649267442177_cont_week2b_248_8_alg».proof.Proof.KIBody1
import proofs.«128646_g1649267442177_cont_week2b_248_8_alg».proof.Proof.KIShare0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => (s₀ m ρ).mem ((c : Dev nD), b)
/-- After the two host operations (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pass: its two results at what the write-backs leave, every other buffer as entered. -/
def W2 (c : Dev nD) : Valuation τ sig (Elt F) :=
  Function.update (Function.update (W1 m ρ c) main_v2_0 ((dat0 (V1 m ρ) c).arrAt 3 cfg0.N)) main_v2_1 ((dat0 (V1 m ρ) c).arrAt 4 cfg0.N)
theorem W2_v2_0 (c : Dev nD) : W2 m ρ c (Proc.devRef .tc main_v2_0) = (dat0 (V1 m ρ) c).arrAt 3 cfg0.N := by
  unfold W2
  rw [Function.update_of_ne (StableHlo.devRef_ne_of_ne (by decide) : (Proc.devRef .tc main_v2_0 : DevRef τ sig) ≠ Proc.devRef .tc main_v2_1),
    Function.update_self]
theorem W2_v2_1 (c : Dev nD) : W2 m ρ c (Proc.devRef .tc main_v2_1) = (dat0 (V1 m ρ) c).arrAt 4 cfg0.N := by
  unfold W2; rw [Function.update_self]
theorem W2_of_ne (c : Dev nD) (r : Ref sig .tc) (h : r ∉ ([main_v2_0, main_v2_1] : List (Ref sig .tc))) :
    W2 m ρ c (Proc.devRef .tc r) = W1 m ρ c (Proc.devRef .tc r) := by
  simp only [W2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1)]
abbrev V2 : (c : Dev nD) → (b : Ref sig .tc) → Buf (Elt F) ((c : Thread nD τ).loc b) := fun c b => W2 m ρ c b

/-- After the second pass: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := (W4_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := (W4_arr m ρ c 3).trans (((dat1 (V2 m ρ) c).arrAt_in 3 rfl _).trans (A_eq1 (V2 m ρ) c 3))
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := (W4_arr m ρ c 4).trans (((dat1 (V2 m ρ) c).arrAt_in 4 rfl _).trans (A_eq1 (V2 m ρ) c 4))
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its pass's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- The first pass over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V1 m ρ) c (V2 m ρ c)
      (W2_of_ne m ρ c main_arg1 (by decide)) (W2_of_ne m ρ c main_arg0 (by decide))
      (W2_v2_0 m ρ c).symm (W2_v2_1 m ρ c).symm
      (fun b hb => W2_of_ne m ρ c b (fun h => hb (List.mem_cons_of_mem _ (List.mem_cons_of_mem _ h))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second pass over the thread state: entered from every unscoped buffer at `W2`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer of every core at the last contents above. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

/-- The run with the two results named: each ends at what the second pass's write-backs leave in its array. -/
theorem run_results : θ_run defs (onTc (τ := τ) (main (F := F))) ⟨m, fun _ => 0, ρ⟩ (fun r => ∀ c : Dev nD,
      r.2.mem ((c.tc : Thread nD τ).loc main_v3_0) = (dat1 (V2 m ρ) c).arrAt 6 cfg1.N
      ∧ r.2.mem ((c.tc : Thread nD τ).loc main_v3_1) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3_0 (by decide))).trans (W4_arr m ρ c 6), (h c _ (mem_uc main_v3_1 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.KernelIdeal.Hand

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.Spec.lean ====
/-
  The layer as one function of whole arrays, on the extended reals.

  With A the dense adjacency matrix, X the node features, W₁, W₂ the two weight matrices and b₁, b₂ the two bias vectors:
    ax  = A · X
    g   = ax ⊙ X                         (entry by entry)
    axx = A · g
    pre = ax · W₁ᵀ + axx · W₂ᵀ + (b₁ + b₂)   (the bias sum added to every row)
    out = elu(pre),   elu(x) = x for x > 0, and e^x − 1 otherwise.
  Every product is the plain sum over the contracted index; nothing here needs the entries to be finite.
-/
import proofs.«128646_g1649267442177_cont_week2b_248_8_alg».proof.Proof.LibDense
import proofs.«128646_g1649267442177_cont_week2b_248_8_alg».proof.Proof.LibDenseNT

noncomputable section

namespace Cert.Gnn

open Idealize.ShloMosaic Idealize.ShloMosaic.ValueIdx Cert.Lib.Dense Cert.Lib.DenseNT

/-- An a × b matrix of extended reals, indexed as the programs index it. -/
abbrev Mat (a b : ℕ) := (⟨2, ![a, b]⟩ : Shape).Idx → EReal
/-- A vector of a extended reals. -/
abbrev Vct (a : ℕ) := (⟨1, ![a]⟩ : Shape).Idx → EReal

/-- A · X. -/
def ax (adj : Mat 10000 10000) (feat : Mat 10000 128) : Mat 10000 128 := fun i => rowDot adj feat (i 0) (i 1)

/-- (A · X) ⊙ X. -/
def gx (adj : Mat 10000 10000) (feat : Mat 10000 128) : Mat 10000 128 := fun i => ax adj feat i * feat i

/-- A · ((A · X) ⊙ X). -/
def axx (adj : Mat 10000 10000) (feat : Mat 10000 128) : Mat 10000 128 := fun i => rowDot adj (gx adj feat) (i 0) (i 1)

/-- The value before the nonlinearity: ax · W₁ᵀ + axx · W₂ᵀ + (b₁ + b₂). -/
def pre (feat : Mat 10000 128) (adj : Mat 10000 10000) (W1 : Mat 128 128) (b1 : Vct 128) (W2 : Mat 128 128) (b2 : Vct 128) :
    Mat 10000 128 :=
  fun i => (rowRowDot (ax adj feat) W1 (i 0) (i 1) + rowRowDot (axx adj feat) W2 (i 0) (i 1)) + (b1 (ix1 (i 1)) + b2 (ix1 (i 1)))

/-- The exponential linear unit on the extended reals: the identity above zero, e^x − 1 elsewhere. -/
def elu (x : EReal) : EReal := Scalar.select (Ideal.cmp .ogt x 0) x (Ideal.exp x - 1)

/-- The layer's output. -/
def out (feat : Mat 10000 128) (adj : Mat 10000 10000) (W1 : Mat 128 128) (b1 : Vct 128) (W2 : Mat 128 128) (b2 : Vct 128) :
    Mat 10000 128 :=
  fun i => elu (pre feat adj W1 b1 W2 b2 i)

theorem ax_ix2 (adj : Mat 10000 10000) (feat : Mat 10000 128) (p : Fin 10000) (q : Fin 128) :
    ax adj feat (ix2 p q) = rowDot adj feat p q := rfl

theorem axx_ix2 (adj : Mat 10000 10000) (feat : Mat 10000 128) (p : Fin 10000) (q : Fin 128) :
    axx adj feat (ix2 p q) = rowDot adj (gx adj feat) p q := rfl

theorem pre_ix2 (feat : Mat 10000 128) (adj : Mat 10000 10000) (W1 : Mat 128 128) (b1 : Vct 128) (W2 : Mat 128 128) (b2 : Vct 128)
    (p : Fin 10000) (q : Fin 128) :
    pre feat adj W1 b1 W2 b2 (ix2 p q)
      = (rowRowDot (ax adj feat) W1 p q + rowRowDot (axx adj feat) W2 p q) + (b1 (ix1 q) + b2 (ix1 q)) := rfl

/-- The float word of 1.0 denotes the real number one. -/
theorem ofBits_one_f32 : Ideal.ofBits .f32 0x3F800000#32 = 1 := by
  simp [Ideal.ofBits, Ideal.ieee, -EReal.coe_mul]; norm_num

end Cert.Gnn

end
-- ==== Proof.KIValue0.lean ====
/-
  The first pass's two results as whole arrays.

  Point t of the first pass writes rows 400·t … 400·t+399 of each result.  In the first result's block, entry (r, q) is
  row r of the adjacency block — row 400·t + r of the adjacency matrix — against column q of the feature matrix: entry
  (400·t + r, q) of A · X.  In the second result's block it is that entry times entry (400·t + r, q) of the feature
  matrix: the same entry of (A · X) ⊙ X.  The twenty-five row blocks tile the 10000 rows, so after the write-backs the
  two arrays hold A · X and (A · X) ⊙ X.  On the extended reals the matrix unit's product into a zero accumulator is the
  plain sum over the contracted index; nothing needs the entries finite.
-/
import proofs.«128646_g1649267442177_cont_week2b_248_8_alg».proof.Proof.KIBody0
import proofs.«128646_g1649267442177_cont_week2b_248_8_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gnn Cert.Lib.Dense Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the adjacency window and the two result windows and the feature-rows
    window sit at row block t, column block 0; the whole-feature window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks as elements of the arrays -/

/-- The adjacency window's block at point t is rows 400·t … 400·t+399 of the adjacency matrix. -/
theorem iblk0_0_apply (c : Dev nD) (t : Fin cfg0.N) (x : S400x10000.Idx) (k : S10000x10000.Idx)
    (hk0 : (k 0).val = 400 * t.val + (x 0).val) (hk1 : (k 1).val = (x 1).val) :
    (iblk0 V c 0 t : Vec Ideal S400x10000 .f32) x = (V c main_arg1 : S10000x10000.Idx → Elt Ideal .f32) k := by
  obtain ⟨e0, e1, -⟩ := idx_facts0 t
  unfold iblk0
  rw [View.read_apply]
  show V c main_arg1 _ = V c main_arg1 _
  congr 1
  funext a
  apply Fin.ext
  match a with
  | ⟨0, _⟩ => show win0_0.index t 0 * 400 + 1 * (x 0).val = (k 0).val; rw [e0, hk0]; omega
  | ⟨1, _⟩ => show win0_0.index t 1 * 10000 + 1 * (x 1).val = (k 1).val; rw [e1, hk1]; omega

/-- The whole-feature window's block, at every point, is the feature matrix. -/
theorem iblk0_1_eq (c : Dev nD) (t : Fin cfg0.N) :
    (iblk0 V c 1 t : Vec Ideal S10000x128 .f32) = (V c main_arg0 : S10000x128.Idx → Elt Ideal .f32) := by
  obtain ⟨-, -, e0, e1, -⟩ := idx_facts0 t
  funext x
  unfold iblk0
  rw [View.read_apply]
  show V c main_arg0 _ = V c main_arg0 _
  congr 1
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- The feature-rows window's block at point t is rows 400·t … 400·t+399 of the feature matrix. -/
theorem iblk0_2_apply (c : Dev nD) (t : Fin cfg0.N) (x : S400x128.Idx) (k : S10000x128.Idx)
    (hk0 : (k 0).val = 400 * t.val + (x 0).val) (hk1 : (k 1).val = (x 1).val) :
    (iblk0 V c 2 t : Vec Ideal S400x128 .f32) x = (V c main_arg0 : S10000x128.Idx → Elt Ideal .f32) k := by
  obtain ⟨-, -, -, -, e0, e1, -⟩ := idx_facts0 t
  unfold iblk0
  rw [View.read_apply]
  show V c main_arg0 _ = V c main_arg0 _
  congr 1
  funext a
  apply Fin.ext
  match a with
  | ⟨0, _⟩ => show win0_2.index t 0 * 400 + 1 * (x 0).val = (k 0).val; rw [e0, hk0]; omega
  | ⟨1, _⟩ => show win0_2.index t 1 * 128 + 1 * (x 1).val = (k 1).val; rw [e1, hk1]; omega

/-! ## The payloads at an entry -/

/-- The product of a block of adjacency rows with the feature matrix, at entry j: when the block's row (j 0) is row
    (i 0) of the adjacency matrix and the columns agree, it is entry i of A · X. -/
theorem pay1_at (x0 : Vec Ideal S400x10000 .f32) (x1 : Vec Ideal S10000x128 .f32) (A : Mat 10000 10000) (X : Mat 10000 128)
    (j : S400x128.Idx) (i : S10000x128.Idx) (hi1 : (i 1).val = (j 1).val)
    (h0 : ∀ k : Fin 10000, x0 (ix2 (j 0) k) = A (ix2 (i 0) k)) (h1 : x1 = X) :
    k0_pay1 x0 x1 j = ax A X i := by
  subst h1
  obtain ⟨p, q, rfl⟩ : ∃ p q, j = ix2 p q := ⟨j 0, j 1, eq_ix2 j⟩
  obtain ⟨r, s, rfl⟩ : ∃ r s, i = ix2 r s := ⟨i 0, i 1, eq_ix2 i⟩
  obtain rfl : s = q := Fin.ext hi1
  show matmul (F := Ideal) (φ₁ := .f32) (φ₂ := .f32) dot_S400x10000_S10000x128_S400x128_1_0_0_1_n_n none x0 x1 (constant S400x128 .f32 0x00000000#32) (ix2 p s) = _
  rw [Cert.Lib.Dense.matmul_zero_at (φ₁ := .f32) (φ₂ := .f32) dot_S400x10000_S10000x128_S400x128_1_0_0_1_n_n rfl rfl rfl rfl rfl rfl x0 x1 p s, ax_ix2]
  unfold rowDot
  exact Finset.sum_congr rfl fun k _ => by rw [show x0 (ix2 p k) = A (ix2 r k) from h0 k]

/-- The same product times a block of feature rows, entry by entry: entry i of (A · X) ⊙ X when the block's entry j is
    entry i of the feature matrix. -/
theorem pay2_at (x0 : Vec Ideal S400x10000 .f32) (x1 : Vec Ideal S10000x128 .f32) (x2 : Vec Ideal S400x128 .f32)
    (A : Mat 10000 10000) (X : Mat 10000 128)
    (j : S400x128.Idx) (i : S10000x128.Idx) (hi1 : (i 1).val = (j 1).val)
    (h0 : ∀ k : Fin 10000, x0 (ix2 (j 0) k) = A (ix2 (i 0) k)) (h1 : x1 = X) (h2 : x2 j = X i) :
    k0_pay2 x0 x1 x2 j = gx A X i := by
  show mulf (k0_pay1 x0 x1) x2 j = ax A X i * X i
  rw [mulf_apply, pay1_at x0 x1 A X j i hi1 h0 h1, h2]

/-! ## What each point writes back -/

/-- Point t writes back, into the first result, block t of A · X. -/
theorem flushed0_3_eq (c : Dev nD) (t : Fin cfg0.N) :
    (dat0 V c).flushed 3 t = ((cfg0.win 3).blk t).view.read (Elt Ideal) (ax (V c main_arg1) (V c main_arg0)) := by
  show (cfg0.win 3).cut (grid0.coords t) ((dat0 V c).after 3 t) = _
  rw [after0_3]
  unfold out0_3
  rw [View.canon_unit_zero hz0]
  simp only [View.ld_unit_zero (S := S400x10000) hz0, View.ld_unit_zero (S := S10000x128) hz0]
  obtain ⟨-, -, -, -, -, -, e30, e31, -⟩ := idx_facts0 t
  funext j
  show k0_pay1 (iblk0 V c 0 t) (iblk0 V c 1 t) j = ax (V c main_arg1) (V c main_arg0) (((cfg0.win 3).blk t).view.emb j)
  refine pay1_at _ _ _ _ j _ ?_ ?_ (iblk0_1_eq V c t)
  · show win0_3.index t 1 * 128 + 1 * (j 1).val = (j 1).val
    rw [e31]; omega
  · intro k
    refine iblk0_0_apply V c t _ _ ?_ rfl
    show win0_3.index t 0 * 400 + 1 * (j 0).val = 400 * t.val + (j 0).val
    rw [e30]; omega

/-- Point t writes back, into the second result, block t of (A · X) ⊙ X. -/
theorem flushed0_4_eq (c : Dev nD) (t : Fin cfg0.N) :
    (dat0 V c).flushed 4 t = ((cfg0.win 4).blk t).view.read (Elt Ideal) (gx (V c main_arg1) (V c main_arg0)) := by
  show (cfg0.win 4).cut (grid0.coords t) ((dat0 V c).after 4 t) = _
  rw [after0_4]
  unfold out0_4
  rw [View.canon_unit_zero hz0]
  simp only [View.ld_unit_zero (S := S400x10000) hz0, View.ld_unit_zero (S := S10000x128) hz0, View.ld_unit_zero (S := S400x128) hz0]
  obtain ⟨-, -, -, -, -, -, -, -, e40, e41⟩ := idx_facts0 t
  funext j
  show k0_pay2 (iblk0 V c 0 t) (iblk0 V c 1 t) (iblk0 V c 2 t) j = gx (V c main_arg1) (V c main_arg0) (((cfg0.win 4).blk t).view.emb j)
  refine pay2_at _ _ _ _ _ j _ ?_ ?_ (iblk0_1_eq V c t) ?_
  · show win0_4.index t 1 * 128 + 1 * (j 1).val = (j 1).val
    rw [e41]; omega
  · intro k
    refine iblk0_0_apply V c t _ _ ?_ rfl
    show win0_4.index t 0 * 400 + 1 * (j 0).val = 400 * t.val + (j 0).val
    rw [e40]; omega
  · refine iblk0_2_apply V c t _ _ ?_ ?_
    · show win0_4.index t 0 * 400 + 1 * (j 0).val = 400 * t.val + (j 0).val
      rw [e40]; omega
    · show win0_4.index t 1 * 128 + 1 * (j 1).val = (j 1).val
      rw [e41]; omega

/-! ## The blocks tile the arrays -/

/-- An index of the first result is in point t's block iff each coordinate is in the block's range on its axis. -/
theorem mem_blk0_3 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v2_0).slice (win0_3.rect t)).set ↔ _
  rw [View.set_slice_whole, Rect.mem_set_unit]
  exact Iff.rfl

theorem mem_blk0_4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v2_1).slice (win0_4.rect t)).set ↔ _
  rw [View.set_slice_whole, Rect.mem_set_unit]
  exact Iff.rfl

/-- Row r of the first result is in the block of point ⌊r / 400⌋. -/
theorem cover0_3 (i : S10000x128.Idx) : ∃ t : Fin cfg0.N, (cfg0.win 3).flush t = true ∧ i ∈ ((cfg0.win 3).blk t).view.set := by
  have hN : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by rw [hN]; omega⟩, rfl⟩
  obtain ⟨-, -, -, -, -, -, e30, e31, -⟩ := idx_facts0 t
  refine ⟨t, flush0_3 t, ?_⟩
  rw [mem_blk0_3]
  intro a
  match a with
  | ⟨0, _⟩ => show win0_3.index t 0 * 400 ≤ (i 0).val ∧ (i 0).val < win0_3.index t 0 * 400 + 400; rw [e30, ht]; omega
  | ⟨1, _⟩ => show win0_3.index t 1 * 128 ≤ (i 1).val ∧ (i 1).val < win0_3.index t 1 * 128 + 128; rw [e31]; omega

/-- Row r of the second result is in the block of point ⌊r / 400⌋. -/
theorem cover0_4 (i : S10000x128.Idx) : ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by rw [hN]; omega⟩, rfl⟩
  obtain ⟨-, -, -, -, -, -, -, -, e40, e41⟩ := idx_facts0 t
  refine ⟨t, flush0_4 t, ?_⟩
  rw [mem_blk0_4]
  intro a
  match a with
  | ⟨0, _⟩ => show win0_4.index t 0 * 400 ≤ (i 0).val ∧ (i 0).val < win0_4.index t 0 * 400 + 400; rw [e40, ht]; omega
  | ⟨1, _⟩ => show win0_4.index t 1 * 128 ≤ (i 1).val ∧ (i 1).val < win0_4.index t 1 * 128 + 128; rw [e41]; omega

/-! ## The arrays after the write-backs -/

/-- The first result ends holding A · X. -/
theorem final0_3 (c : Dev nD) : (dat0 V c).arrAt 3 cfg0.N = Cert.Gnn.ax (V c main_arg1) (V c main_arg0) :=
  (dat0 V c).arrAt_eq_of_cover 3 _ (fun t _ => flushed0_3_eq V c t) cover0_3

/-- The second result ends holding (A · X) ⊙ X. -/
theorem final0_4 (c : Dev nD) : (dat0 V c).arrAt 4 cfg0.N = Cert.Gnn.gx (V c main_arg1) (V c main_arg0) :=
  (dat0 V c).arrAt_eq_of_cover 4 _ (fun t _ => flushed0_4_eq V c t) cover0_4

end Cert.KernelIdeal.Hand

end
-- ==== Proof.KIValue1.lean ====
/-
  The second pass's two results as whole arrays.

  At grid point t the second pass reads rows 400·t … 400·t+399 of the adjacency matrix A and of the first pass's first
  result AX, all of the first pass's second result G, the two weight matrices W₁, W₂ and the bias row B, and writes rows
  400·t … 400·t+399 of its two results. Row by row the first result is
    pre(r, q) = (∑ k, AX(r, k) · W₁(q, k) + ∑ k, (∑ l, A(r, l) · G(l, k)) · W₂(q, k)) + B(0, q),
  a function of row r of A and of AX only, so the 25 blocks are the 25 row bands of one function of the whole arrays;
  the second result is the exponential linear unit of the first, entry by entry. The 25 bands cover the 10000 rows.
-/
import proofs.«128646_g1649267442177_cont_week2b_248_8_alg».proof.Proof.KIBody1
import proofs.«128646_g1649267442177_cont_week2b_248_8_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gnn Cert.Lib.Dense Cert.Lib.DenseNT Idealize.ShloMosaic.ValueIdx
open scoped BigOperators

variable (V : (c : Dev nD) → (b : Ref sig .tc) → Buf (Elt Ideal) ((c : Thread nD τ).loc b))

/-- the pass's first result as a function of the arrays it is entered with -/
def preK (A : Mat 10000 10000) (G AX : Mat 10000 128) (W1 W2 : Mat 128 128) (B : Mat 1 128) : Mat 10000 128 :=
  fun i => (rowRowDot AX W1 (i 0) (i 1) + rowRowDot (fun j : (⟨2, ![10000, 128]⟩ : Shape).Idx => rowDot A G (j 0) (j 1)) W2 (i 0) (i 1)) + B (ix2 (0 : Fin 1) (i 1))

theorem preK_ix2 (A : Mat 10000 10000) (G AX : Mat 10000 128) (W1 W2 : Mat 128 128) (B : Mat 1 128) (r : Fin 10000) (q : Fin 128) :
    preK A G AX W1 W2 B (ix2 r q)
      = (rowRowDot AX W1 r q + rowRowDot (fun j : (⟨2, ![10000, 128]⟩ : Shape).Idx => rowDot A G (j 0) (j 1)) W2 r q) + B (ix2 (0 : Fin 1) q) := rfl

/-! ## The payloads at an entry -/

/-- The first payload at entry (p, q) of a block whose row p is row r of the whole arrays. -/
theorem kpay1_at (x0 : Vec Ideal S400x10000 .f32) (x1 : Vec Ideal S10000x128 .f32) (x2 : Vec Ideal S400x128 .f32)
    (x3 x4 : Vec Ideal S128x128 .f32) (x5 : Vec Ideal S1x128 .f32) (A : Mat 10000 10000) (G AX : Mat 10000 128)
    (p : Fin 400) (q : Fin 128) (r : Fin 10000)
    (h0 : ∀ k : Fin 10000, x0 (ix2 p k) = A (ix2 r k)) (h1 : x1 = G) (h2 : ∀ k : Fin 128, x2 (ix2 p k) = AX (ix2 r k)) :
    k1_pay1 x0 x1 x2 x3 x4 x5 (ix2 p q) = preK A G AX x3 x4 x5 (ix2 r q) := by
  subst h1
  rw [preK_ix2]
  unfold k1_pay1
  simp only [shapeCast_self]
  rw [addf_apply, addf_apply, broadcastTo_1b_ab_apply,
    Cert.Lib.DenseNT.matmul_zero_at dot_S400x128_S128x128_S400x128_1_1_0_0_n_n rfl rfl rfl rfl rfl rfl (some .fp32) x2 x3 p q,
    Cert.Lib.DenseNT.matmul_zero_at dot_S400x128_S128x128_S400x128_1_1_0_0_n_n rfl rfl rfl rfl rfl rfl (some .fp32) _ x4 p q]
  congr 2
  · unfold rowRowDot
    exact Finset.sum_congr rfl fun k _ => by rw [h2 k]
  · unfold rowRowDot
    refine Finset.sum_congr rfl fun k _ => ?_
    rw [Cert.Lib.Dense.matmul_zero_at dot_S400x10000_S10000x128_S400x128_1_0_0_1_n_n rfl rfl rfl rfl rfl rfl x0 x1 p k]
    unfold rowDot
    exact congrArg (· * x4 (ix2 q k)) (Finset.sum_congr rfl fun l _ => by rw [h0 l])

/-- The second payload is the exponential linear unit of the first, entry by entry. -/
theorem kpay2_at (x0 : Vec Ideal S400x10000 .f32) (x1 : Vec Ideal S10000x128 .f32) (x2 : Vec Ideal S400x128 .f32)
    (x3 x4 : Vec Ideal S128x128 .f32) (x5 : Vec Ideal S1x128 .f32) (j : S400x128.Idx) :
    k1_pay2 x0 x1 x2 x3 x4 x5 j = elu (k1_pay1 x0 x1 x2 x3 x4 x5 j) := by
  unfold k1_pay2 elu
  show Scalar.select (Ideal.cmp .ogt (k1_pay1 x0 x1 x2 x3 x4 x5 j) (Ideal.ofBits .f32 0x00000000#32)) (k1_pay1 x0 x1 x2 x3 x4 x5 j)
      (Ideal.exp (k1_pay1 x0 x1 x2 x3 x4 x5 j) - Ideal.ofBits .f32 0x3F800000#32) = _
  rw [Ideal.ofBits_zero_f32, ofBits_one_f32]

/-! ## The blocks the pass reads, as rows of the whole arrays -/

theorem hz1 : (![0, 0] : Fin 2 → Nat) = fun _ => 0 := funext fun a => by fin_cases a <;> rfl

/-- The printed index maps, decided over the 25 grid points: the adjacency matrix, the first pass's first result and the
    two results move one row band per point; the other four windows stay at the whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The adjacency window's block at point t is rows 400·t … 400·t+399 of the adjacency matrix. -/
theorem iblk1_0_apply (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .f32) x = (V c main_arg1 : S10000x10000.Idx → Elt Ideal .f32) k := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- The second window's block is the whole of the first pass's second result, at every point. -/
theorem iblk1_1_eq (c : Dev nD) (t : Fin cfg1.N) :
    (iblk1 V c 1 t : Vec Ideal S10000x128 .f32) = (V c main_v2_1 : S10000x128.Idx → Elt Ideal .f32) := by
  obtain ⟨-, -, e0, e1, -⟩ := idx_facts1 t
  funext x
  unfold iblk1
  rw [View.read_apply]
  show V c main_v2_1 _ = V c main_v2_1 _
  congr 1
  funext a
  apply Fin.ext
  match a with
  | ⟨0, _⟩ => show win1_1.index t 0 * 10000 + 1 * (x 0).val = (x 0).val; rw [e0]; omega
  | ⟨1, _⟩ => show win1_1.index t 1 * 128 + 1 * (x 1).val = (x 1).val; rw [e1]; omega

/-- The third window's block at point t is rows 400·t … 400·t+399 of the first pass's first result. -/
theorem iblk1_2_apply (c : Dev nD) (t : Fin cfg1.N) (x : S400x128.Idx) (k : S10000x128.Idx)
    (hk0 : (k 0).val = 400 * t.val + (x 0).val) (hk1 : (k 1).val = (x 1).val) :
    (iblk1 V c 2 t : Vec Ideal S400x128 .f32) x = (V c main_v2_0 : S10000x128.Idx → Elt Ideal .f32) k := by
  obtain ⟨-, -, -, -, e0, e1, -⟩ := idx_facts1 t
  unfold iblk1
  rw [View.read_apply]
  show V c main_v2_0 _ = V c main_v2_0 _
  congr 1
  funext a
  apply Fin.ext
  match a with
  | ⟨0, _⟩ => show win1_2.index t 0 * 400 + 1 * (x 0).val = (k 0).val; rw [e0, hk0]; omega
  | ⟨1, _⟩ => show win1_2.index t 1 * 128 + 1 * (x 1).val = (k 1).val; rw [e1, hk1]; omega

/-- The first weight window's block is the whole of W₁, at every point. -/
theorem iblk1_3_eq (c : Dev nD) (t : Fin cfg1.N) :
    (iblk1 V c 3 t : Vec Ideal S128x128 .f32) = (V c main_arg2 : S128x128.Idx → Elt Ideal .f32) := by
  obtain ⟨-, -, -, -, -, -, e0, e1, -⟩ := idx_facts1 t
  funext x
  unfold iblk1
  rw [View.read_apply]
  show V c main_arg2 _ = V c main_arg2 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega
/-- The second weight window's block is the whole of W₂, at every point. -/
theorem iblk1_4_eq (c : Dev nD) (t : Fin cfg1.N) :
    (iblk1 V c 4 t : Vec Ideal S128x128 .f32) = (V c main_arg4 : S128x128.Idx → Elt Ideal .f32) := by
  obtain ⟨-, -, -, -, -, -, -, -, e0, e1, -⟩ := idx_facts1 t
  funext x
  unfold iblk1
  rw [View.read_apply]
  show V c main_arg4 _ = V c main_arg4 _
  congr 1
  funext a
  apply Fin.ext
  match a with
  | ⟨0, _⟩ => show win1_4.index t 0 * 128 + 1 * (x 0).val = (x 0).val; rw [e0]; omega
  | ⟨1, _⟩ => show win1_4.index t 1 * 128 + 1 * (x 1).val = (x 1).val; rw [e1]; omega
/-- The bias window's block is the whole bias row, at every point. -/
theorem iblk1_5_eq (c : Dev nD) (t : Fin cfg1.N) :
    (iblk1 V c 5 t : Vec Ideal S1x128 .f32) = (V c main_v1 : S1x128.Idx → Elt Ideal .f32) := by
  obtain ⟨-, -, -, -, -, -, -, -, -, -, e0, e1, -⟩ := idx_facts1 t
  funext x
  unfold iblk1
  rw [View.read_apply]
  show V c main_v1 _ = V c main_v1 _
  congr 1
  funext a
  apply Fin.ext
  match a with
  | ⟨0, _⟩ => show win1_5.index t 0 * 1 + 1 * (x 0).val = (x 0).val; rw [e0]; omega
  | ⟨1, _⟩ => show win1_5.index t 1 * 128 + 1 * (x 1).val = (x 1).val; rw [e1]; omega

/-! ## What each point writes back -/

/-- At point t, entry (p, q) of the first payload of the six blocks is entry (400·t + p, q) of the whole-array function. -/
theorem blk_kpay1 (c : Dev nD) (t : Fin cfg1.N) (p : Fin 400) (q : Fin 128) (r : Fin 10000) (hr : r.val = 400 * t.val + p.val) :
    k1_pay1 (iblk1 V c 0 t) (iblk1 V c 1 t) (iblk1 V c 2 t) (iblk1 V c 3 t) (iblk1 V c 4 t) (iblk1 V c 5 t) (ix2 p q)
      = preK (V c main_arg1) (V c main_v2_1) (V c main_v2_0) (V c main_arg2) (V c main_arg4) (V c main_v1) (ix2 r q) := by
  have e3 := iblk1_3_eq V c t
  have e4 := iblk1_4_eq V c t
  have e5 := iblk1_5_eq V c t
  refine (kpay1_at _ _ _ _ _ _ (V c main_arg1) (V c main_v2_1) (V c main_v2_0) p q r
    (fun k => iblk1_0_apply V c t (ix2 p k) (ix2 r k) hr rfl) (iblk1_1_eq V c t)
    (fun k => iblk1_2_apply V c t (ix2 p k) (ix2 r k) hr rfl)).trans ?_
  rw [e3, e4, e5]

/-- A result block's entry (p, q) at point t sits at (400·t + p, q) of the result. -/
theorem emb1_6 (t : Fin cfg1.N) (p : Fin 400) (q : Fin 128) (r : Fin 10000) (hr : r.val = 400 * t.val + p.val) :
    ((cfg1.win 6).blk t).view.emb (ix2 p q) = ix2 r q := by
  obtain ⟨-, -, -, -, -, -, -, -, -, -, -, -, e0, e1, -⟩ := idx_facts1 t
  funext a
  apply Fin.ext
  match a with
  | ⟨0, _⟩ => show win1_6.index t 0 * 400 + 1 * p.val = r.val; rw [e0, hr]; omega
  | ⟨1, _⟩ => show win1_6.index t 1 * 128 + 1 * q.val = q.val; rw [e1]; omega
/-- The same for the second result's block. -/
theorem emb1_7 (t : Fin cfg1.N) (p : Fin 400) (q : Fin 128) (r : Fin 10000) (hr : r.val = 400 * t.val + p.val) :
    ((cfg1.win 7).blk t).view.emb (ix2 p q) = ix2 r q := by
  obtain ⟨-, -, -, -, -, -, -, -, -, -, -, -, -, -, e0, e1⟩ := idx_facts1 t
  funext a
  apply Fin.ext
  match a with
  | ⟨0, _⟩ => show win1_7.index t 0 * 400 + 1 * p.val = r.val; rw [e0, hr]; omega
  | ⟨1, _⟩ => show win1_7.index t 1 * 128 + 1 * q.val = q.val; rw [e1]; omega

/-- Row 400·t + p is one of the 10000 rows. -/
theorem row_lt1 (t : Fin cfg1.N) (p : Fin 400) : 400 * t.val + p.val < 10000 := by
  have hN : cfg1.N = 25 := N_1
  have ht : t.val < cfg1.N := t.isLt
  have hp : p.val < 400 := p.isLt
  omega

/-- What point t writes back to the first result is block t of the whole-array function. -/
theorem flushed1_6_eq (c : Dev nD) (t : Fin cfg1.N) :
    (dat1 V c).flushed 6 t = ((cfg1.win 6).blk t).view.read (Elt Ideal)
      (preK (V c main_arg1) (V c main_v2_1) (V c main_v2_0) (V c main_arg2) (V c main_arg4) (V c main_v1)) := by
  show (cfg1.win 6).cut (grid1.coords t) ((dat1 V c).after 6 t) = _
  rw [after1_6]
  unfold out1_6
  rw [View.canon_unit_zero hz1]
  simp only [View.ld_unit_zero (S := S400x10000) hz1, View.ld_unit_zero (S := S10000x128) hz1, View.ld_unit_zero (S := S400x128) hz1,
    View.ld_unit_zero (S := S128x128) hz1, View.ld_unit_zero (S := S1x128) hz1]
  funext j
  obtain ⟨p, q, rfl⟩ : ∃ (p : Fin 400) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = preK (V c main_arg1) (V c main_v2_1) (V c main_v2_0) (V c main_arg2) (V c main_arg4) (V c main_v1) (((cfg1.win 6).blk t).view.emb (ix2 p q))
  rw [emb1_6 t p q ⟨400 * t.val + p.val, row_lt1 t p⟩ rfl]
  exact blk_kpay1 V c t p q _ rfl

/-- What point t writes back to the second result is block t of the exponential linear unit of that function. -/
theorem flushed1_7_eq (c : Dev nD) (t : Fin cfg1.N) :
    (dat1 V c).flushed 7 t = ((cfg1.win 7).blk t).view.read (Elt Ideal)
      (fun i => elu (preK (V c main_arg1) (V c main_v2_1) (V c main_v2_0) (V c main_arg2) (V c main_arg4) (V c main_v1) i)) := by
  show (cfg1.win 7).cut (grid1.coords t) ((dat1 V c).after 7 t) = _
  rw [after1_7]
  unfold out1_7
  rw [View.canon_unit_zero hz1]
  simp only [View.ld_unit_zero (S := S400x10000) hz1, View.ld_unit_zero (S := S10000x128) hz1, View.ld_unit_zero (S := S400x128) hz1,
    View.ld_unit_zero (S := S128x128) hz1, View.ld_unit_zero (S := S1x128) hz1]
  funext j
  obtain ⟨p, q, rfl⟩ : ∃ (p : Fin 400) (q : Fin 128), j = ix2 p q := ⟨j 0, j 1, eq_ix2 j⟩
  show k1_pay2 (iblk1 V c 0 t) (iblk1 V c 1 t) (iblk1 V c 2 t) (iblk1 V c 3 t) (iblk1 V c 4 t) (iblk1 V c 5 t) (ix2 p q)
    = elu (preK (V c main_arg1) (V c main_v2_1) (V c main_v2_0) (V c main_arg2) (V c main_arg4) (V c main_v1) (((cfg1.win 7).blk t).view.emb (ix2 p q)))
  rw [emb1_7 t p q ⟨400 * t.val + p.val, row_lt1 t p⟩ rfl, kpay2_at]
  exact congrArg elu (blk_kpay1 V c t p q _ rfl)

/-! ## The 25 row bands cover the results -/

/-- A row of a result is in point t's block iff it is in the band 400·t … 400·t+399 (and its column in 0 … 127). -/
theorem mem_blk1_6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v3_0).slice (win1_6.rect t)).set ↔ _
  rw [View.set_slice_whole, Rect.mem_set_unit]
  exact Iff.rfl
/-- The same for the second result. -/
theorem mem_blk1_7 (t : Fin cfg1.N) (i : S10000x128.Idx) :
    i ∈ ((cfg1.win 7).blk t).view.set ↔ ∀ a : Fin 2, win1_7.index t a * S400x128.size a ≤ (i a).val ∧ (i a).val < win1_7.index t a * S400x128.size a + S400x128.size a := by
  show i ∈ ((View.whole main_v3_1).slice (win1_7.rect t)).set ↔ _
  rw [View.set_slice_whole, Rect.mem_set_unit]
  exact Iff.rfl

/-- The point whose band holds row r is r / 400. -/
theorem band_lt1 (i : S10000x128.Idx) : (i 0).val / 400 < cfg1.N := by
  have hN : cfg1.N = 25 := N_1
  have hi0 : (i 0).val < 10000 := (i 0).isLt
  omega

/-- Every entry of the first result is in some point's block, -/
theorem cover1_6 (i : S10000x128.Idx) : ∃ t : Fin cfg1.N, (cfg1.win 6).flush t = true ∧ i ∈ ((cfg1.win 6).blk t).view.set := by
  have hi1 : (i 1).val < 128 := (i 1).isLt
  obtain ⟨-, -, -, -, -, -, -, -, -, -, -, -, e0, e1, -⟩ := idx_facts1 ⟨(i 0).val / 400, band_lt1 i⟩
  refine ⟨⟨(i 0).val / 400, band_lt1 i⟩, flush1_6 _, ?_⟩
  rw [mem_blk1_6]
  intro a
  match a with
  | ⟨0, _⟩ =>
    show win1_6.index ⟨(i 0).val / 400, band_lt1 i⟩ 0 * 400 ≤ (i 0).val ∧ (i 0).val < win1_6.index ⟨(i 0).val / 400, band_lt1 i⟩ 0 * 400 + 400
    rw [e0]; show (i 0).val / 400 * 400 ≤ (i 0).val ∧ (i 0).val < (i 0).val / 400 * 400 + 400; omega
  | ⟨1, _⟩ =>
    show win1_6.index ⟨(i 0).val / 400, band_lt1 i⟩ 1 * 128 ≤ (i 1).val ∧ (i 1).val < win1_6.index ⟨(i 0).val / 400, band_lt1 i⟩ 1 * 128 + 128
    rw [e1]; omega
/-- and every entry of the second result likewise. -/
theorem cover1_7 (i : S10000x128.Idx) : ∃ t : Fin cfg1.N, (cfg1.win 7).flush t = true ∧ i ∈ ((cfg1.win 7).blk t).view.set := by
  have hi1 : (i 1).val < 128 := (i 1).isLt
  obtain ⟨-, -, -, -, -, -, -, -, -, -, -, -, -, -, e0, e1⟩ := idx_facts1 ⟨(i 0).val / 400, band_lt1 i⟩
  refine ⟨⟨(i 0).val / 400, band_lt1 i⟩, flush1_7 _, ?_⟩
  rw [mem_blk1_7]
  intro a
  match a with
  | ⟨0, _⟩ =>
    show win1_7.index ⟨(i 0).val / 400, band_lt1 i⟩ 0 * 400 ≤ (i 0).val ∧ (i 0).val < win1_7.index ⟨(i 0).val / 400, band_lt1 i⟩ 0 * 400 + 400
    rw [e0]; show (i 0).val / 400 * 400 ≤ (i 0).val ∧ (i 0).val < (i 0).val / 400 * 400 + 400; omega
  | ⟨1, _⟩ =>
    show win1_7.index ⟨(i 0).val / 400, band_lt1 i⟩ 1 * 128 ≤ (i 1).val ∧ (i 1).val < win1_7.index ⟨(i 0).val / 400, band_lt1 i⟩ 1 * 128 + 128
    rw [e1]; omega

/-! ## The two results after the pass -/

/-- The first result ends holding the whole-array function of the arrays the pass is entered with. -/
theorem final1_6 (c : Dev nD) : (dat1 V c).arrAt 6 cfg1.N
    = preK (V c main_arg1) (V c main_v2_1) (V c main_v2_0) (V c main_arg2) (V c main_arg4) (V c main_v1) :=
  (dat1 V c).arrAt_eq_of_cover 6 _ (fun t _ => flushed1_6_eq V c t) cover1_6

/-- The second result ends holding its exponential linear unit, entry by entry. -/
theorem final1_7 (c : Dev nD) : (dat1 V c).arrAt 7 cfg1.N
    = fun i => Cert.Gnn.elu (preK (V c main_arg1) (V c main_v2_1) (V c main_v2_0) (V c main_arg2) (V c main_arg4) (V c main_v1) i) :=
  (dat1 V c).arrAt_eq_of_cover 7 _ (fun t _ => flushed1_7_eq V c t) cover1_7

end Cert.KernelIdeal.Hand

end
-- ==== Proof.KIValue.lean ====
/-
  The program's two results as the layer's two functions of its arguments.

  Entering the second pass, the first pass's results hold A · X and (A · X) ⊙ X of the launch arrays, the bias row
  holds b₁ + b₂ as a one-row matrix, and the arguments hold their launch contents. So the second pass's first result,
  rows of (AX · W₁ᵀ + (A · G) · W₂ᵀ) plus the bias row, is the specification's value before the nonlinearity, and its
  second result is the exponential linear unit of that, entry by entry.
-/
import proofs.«128646_g1649267442177_cont_week2b_248_8_alg».proof.Proof.Gen.KernelIdeal.Launch
import proofs.«128646_g1649267442177_cont_week2b_248_8_alg».proof.Proof.Gen.KernelIdeal.Skeleton
import proofs.«128646_g1649267442177_cont_week2b_248_8_alg».proof.Proof.Gen.KernelIdeal.Points
import proofs.«128646_g1649267442177_cont_week2b_248_8_alg».proof.Proof.KIRun
import proofs.«128646_g1649267442177_cont_week2b_248_8_alg».proof.Proof.KIValue0
import proofs.«128646_g1649267442177_cont_week2b_248_8_alg».proof.Proof.KIValue1
import proofs.«128646_g1649267442177_cont_week2b_248_8_alg».proof.Proof.Spec
import Idealize.ShloMosaic.Lib.ValueLayout
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gnn Cert.Lib.Dense Cert.Lib.DenseNT Idealize.ShloMosaic.ValueIdx

variable (m : (ℓ : Loc nD τ sig) → Buf (Elt Ideal) ℓ) (ρ : Dev nD → PrngReg)

/-- The second pass's first result with its entry arrays named by what they hold is the specification's value. -/
theorem preK_eq (A A' : Mat 10000 10000) (X G AX : Mat 10000 128) (W1 W1' W2 W2' : Mat 128 128) (b1 b2 : Vct 128) (B : Mat 1 128)
    (hA : A' = A) (hG : G = gx A X) (hAX : AX = ax A X) (h1 : W1' = W1) (h2 : W2' = W2)
    (hB : ∀ q : Fin 128, B (ix2 (0 : Fin 1) q) = b1 (ix1 q) + b2 (ix1 q)) :
    preK A' G AX W1' W2' B = pre X A W1 b1 W2 b2 := by
  subst hA hG hAX h1 h2
  funext i
  unfold preK pre
  rw [hB (i 1)]
  rfl

/-- An argument array holds its launch contents when the first pass is entered, -/
theorem V1_arg (c : Dev nD) (r : Ref sig .tc) (h : r ∉ hostOps0_W) : V1 m ρ c r = m ((c : Thread nD τ).loc r) :=
  (StableHlo.after_of_writes_sub hostOps0 _ hostOps0_writes h).trans rfl
/-- and when the second is. -/
theorem V2_arg (c : Dev nD) (r : Ref sig .tc) (h2 : r ∉ ([main_v2_0, main_v2_1] : List (Ref sig .tc))) (h1 : r ∉ hostOps0_W) :
    V2 m ρ c r = m ((c : Thread nD τ).loc r) :=
  (W2_of_ne m ρ c r h2).trans (V1_arg m ρ c r h1)

/-- The bias row after the two host operations: b₁ + b₂ as a one-row matrix. -/
theorem V1_bias (c : Dev nD) :
    V1 m ρ c main_v1 = shapeCast S1x128 (addf (F := Ideal) (s := S128) (φ := .f32) (m ((c : Thread nD τ).loc main_arg3)) (m ((c : Thread nD τ).loc main_arg5))) shapeCasts_S128_S1x128 := by
  dsimp only [V1, W1, hostOps0]
  after_results
  rfl

/-- Its entry in column q when the second pass is entered: b₁(q) + b₂(q). -/
theorem bias_at (c : Dev nD) (B : Mat 1 128) (b1 b2 : Vct 128) (hB : B = V2 m ρ c main_v1)
    (h1 : b1 = (m ((c : Thread nD τ).loc main_arg3))) (h2 : b2 = (m ((c : Thread nD τ).loc main_arg5))) (q : Fin 128) :
    B (ix2 (0 : Fin 1) q) = b1 (ix1 q) + b2 (ix1 q) := by
  subst hB h1 h2
  rw [show V2 m ρ c main_v1 = V1 m ρ c main_v1 from W2_of_ne m ρ c main_v1 (by decide), V1_bias m ρ c]
  exact shapeCast_a_1a_apply _ shapeCasts_S128_S1x128 0 q

theorem preK_args (c : Dev nD) :
    preK (V2 m ρ c main_arg1) (V2 m ρ c main_v2_1) (V2 m ρ c main_v2_0) (V2 m ρ c main_arg2) (V2 m ρ c main_arg4) (V2 m ρ c main_v1)
      = pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  preK_eq _ _ _ _ _ _ _ _ _ _ _ _ (V2_arg m ρ c main_arg1 (by decide) (by decide))
    ((W2_v2_1 m ρ c).trans ((final0_4 (V1 m ρ) c).trans (by rw [V1_arg m ρ c main_arg1 (by decide), V1_arg m ρ c main_arg0 (by decide)])))
    ((W2_v2_0 m ρ c).trans ((final0_3 (V1 m ρ) c).trans (by rw [V1_arg m ρ c main_arg1 (by decide), V1_arg m ρ c main_arg0 (by decide)])))
    (V2_arg m ρ c main_arg2 (by decide) (by decide)) (V2_arg m ρ c main_arg4 (by decide) (by decide)) (bias_at m ρ c _ _ _ rfl rfl rfl)

/-- The first result is the value before the nonlinearity, -/
theorem pre_eq (c : Dev nD) : (dat1 (V2 m ρ) c).arrAt 6 cfg1.N = pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (final1_6 (V2 m ρ) c).trans (preK_args m ρ c)

/-- and the second its exponential linear unit. -/
theorem out_eq (c : Dev nD) : (dat1 (V2 m ρ) c).arrAt 7 cfg1.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (final1_7 (V2 m ρ) c).trans (funext fun i => congrArg elu (congrFun (preK_args m ρ c) i))

/-- The run, read: both results at the layer's functions of the launch arrays, the arguments unchanged. -/
theorem value_run : θ_run defs (onTc (τ := τ) (main (F := Ideal))) ⟨m, fun _ => 0, ρ⟩ (fun r => ∀ c : Dev nD,
      r.2.mem ((c.tc : Thread nD τ).loc main_v3_0) = pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v3_1) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (pre_eq m ρ c), (h c).2.1.trans (out_eq m ρ c), (h c).2.2⟩) (run_results m ρ)

end Cert.KernelIdeal.Hand

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.RefRun.lean ====
/-
  The reference program's run, read back as whole arrays.

  The reference's @main is fourteen host operations followed by a call of the exponential linear unit, whose own
  body calls the two select helpers; with every call unfolded at its site the program is one straight line of
  twenty-nine operations.  Run from any memory with zero counters it terminates, every buffer ending at the
  operations' fold over the launch contents; this module states the program as that line and proves the run.
-/
import proofs.«128646_g1649267442177_cont_week2b_248_8_alg».proof.Defs
import proofs.«128646_g1649267442177_cont_week2b_248_8_alg».proof.Proof.Gen.ReferenceIdeal
import proofs.«128646_g1649267442177_cont_week2b_248_8_alg».proof.Proof.Spec
import proofs.«128646_g1649267442177_cont_week2b_248_8_alg».proof.Proof.LibIndexNorm
import Idealize.ShloMosaic.Lib.StableHlo.Run
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: its own fourteen; then the unit's fifteen over the call's
    buffers — the zero, its broadcast and the comparison, twice; the zero the inner select takes, converted to its
    own type, broadcast, and the select; the exponential minus one; the one, its broadcast, the product; the outer
    select. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg2 main_v1 ((transpose S128x128 [1, 0] · transposes_S128x128_S128x128_1_0) : (⟨S128x128, .f32⟩ : BufTy).Contents (Elt F) → (⟨S128x128, .f32⟩ : BufTy).Contents (Elt F)),
    binary main_v0 main_v1 main_v2 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v3 (broadcastInDim S1x128 ![1] bcast_S128_S1x128_1 : (⟨S128, .f32⟩ : BufTy).Contents (Elt F) → (⟨S1x128, .f32⟩ : BufTy).Contents (Elt F)),
    unary main_v3 main_v4 (broadcastInDim S10000x128 ![0, 1] bcast_S1x128_S10000x128_0_1 : (⟨S1x128, .f32⟩ : BufTy).Contents (Elt F) → (⟨S10000x128, .f32⟩ : BufTy).Contents (Elt F)),
    binary main_v2 main_v4 main_v5 (addf : (⟨S10000x128, .f32⟩ : BufTy).Contents (Elt F) → (⟨S10000x128, .f32⟩ : BufTy).Contents (Elt F) → (⟨S10000x128, .f32⟩ : BufTy).Contents (Elt F)),
    binary main_v0 main_arg0 main_v6 (mulf : (⟨S10000x128, .f32⟩ : BufTy).Contents (Elt F) → (⟨S10000x128, .f32⟩ : BufTy).Contents (Elt F) → (⟨S10000x128, .f32⟩ : BufTy).Contents (Elt F)),
    binary main_arg1 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg4 main_v8 ((transpose S128x128 [1, 0] · transposes_S128x128_S128x128_1_0) : (⟨S128x128, .f32⟩ : BufTy).Contents (Elt F) → (⟨S128x128, .f32⟩ : BufTy).Contents (Elt F)),
    binary main_v7 main_v8 main_v9 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S10000x128 ![0, 1] bcast_S1x128_S10000x128_0_1 : (⟨S1x128, .f32⟩ : BufTy).Contents (Elt F) → (⟨S10000x128, .f32⟩ : BufTy).Contents (Elt F)),
    binary main_v9 main_v11 main_v12 (addf : (⟨S10000x128, .f32⟩ : BufTy).Contents (Elt F) → (⟨S10000x128, .f32⟩ : BufTy).Contents (Elt F) → (⟨S10000x128, .f32⟩ : BufTy).Contents (Elt F)),
    binary main_v5 main_v12 main_v13 (addf : (⟨S10000x128, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v13) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v13) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v13) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v13) main_call0.v7 main_call0.call1.v0 select ]

set_option maxRecDepth 1024 in
/-- @main is that straight line: the three functions' definitions unfolded at their calls and the records at their
    fields, both sides are one chain of steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., unary_bufs_sub .., binary_bufs_sub ..,
    binary_bufs_sub .., binary_bufs_sub .., unary_bufs_sub .., binary_bufs_sub .., unary_bufs_sub .., unary_bufs_sub ..,
    binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- At the compiled mesh, for any float values, from any memory with zero counters: every weakly fair execution of
    @main terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The two results as composed terms -/

/-- The value before the nonlinearity, as the operations compose it: the two products against the transposed weights,
    each with its bias row spread over the rows, added. -/
def refPre (X : FVec F S10000x128 .f32) (A : FVec F S10000x10000 .f32) (W1 : FVec F S128x128 .f32) (b1 : FVec F S128 .f32)
    (W2 : FVec F S128x128 .f32) (b2 : FVec F S128 .f32) : FVec F S10000x128 .f32 :=
  addf
    (addf (Host.dotGeneral dot_S10000x128_S128x128_S10000x128_1_0_0_1_n_n none (Host.dotGeneral dot_S10000x10000_S10000x128_S10000x128_1_0_0_1_n_n none A X) (transpose S128x128 [1, 0] W1 transposes_S128x128_S128x128_1_0))
      (broadcastInDim S10000x128 ![0, 1] bcast_S1x128_S10000x128_0_1 (broadcastInDim S1x128 ![1] bcast_S128_S1x128_1 b1)))
    (addf (Host.dotGeneral dot_S10000x128_S128x128_S10000x128_1_0_0_1_n_n none
        (Host.dotGeneral dot_S10000x10000_S10000x128_S10000x128_1_0_0_1_n_n none A (mulf (Host.dotGeneral dot_S10000x10000_S10000x128_S10000x128_1_0_0_1_n_n none A X) X)) (transpose S128x128 [1, 0] W2 transposes_S128x128_S128x128_1_0))
      (broadcastInDim S10000x128 ![0, 1] bcast_S1x128_S10000x128_0_1 (broadcastInDim S1x128 ![1] bcast_S128_S1x128_1 b2)))

/-- The exponential linear unit, as its operations compose it: where the entry is above zero the entry, elsewhere
    one times the exponential minus one of the entry (read through a select that has replaced the entries above zero
    by zero). -/
def refElu (x : FVec F S10000x128 .f32) : FVec F S10000x128 .f32 :=
  select (cmpf .ogt x (broadcastInDim S10000x128 ![] bcast_S_S10000x128 (constant S_ .f32 0x00000000#32))) x
    (mulf (broadcastInDim S10000x128 ![] bcast_S_S10000x128 (constant S_ .f32 0x3F800000#32))
      (Host.expm1 (select (cmpf .ogt x (broadcastInDim S10000x128 ![] bcast_S_S10000x128 (constant S_ .f32 0x00000000#32)))
        (broadcastInDim S10000x128 ![] bcast_S_S10000x128 (id (constant S_ .f32 0x00000000#32))) x)))

/-- The first result's buffer after the line. -/
theorem pre_after (V : Valuation τ sig (Elt F)) :
    after ops V (main_v13 : DevRef τ sig) = refPre (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

/-- The second result's buffer after the line: the unit of the first (the typed references' transports are the
    identity at these literal references). -/
theorem out_after (V : Valuation τ sig (Elt F)) :
    after ops V (main_v14 : DevRef τ sig) = refElu (refPre (V (main_arg0 : DevRef τ sig)) (V (main_arg1 : DevRef τ sig)) (V (main_arg2 : DevRef τ sig)) (V (main_arg3 : DevRef τ sig)) (V (main_arg4 : DevRef τ sig)) (V (main_arg5 : DevRef τ sig))) := by
  after_results_simp
  simp only [TRef.ofBuf, TRef.toBuf, cast_eq]
  rfl

theorem arg0_after (V : Valuation τ sig (Elt F)) : after ops V (main_arg0 : DevRef τ sig) = V (main_arg0 : DevRef τ sig) := by
  after_results_simp
theorem arg1_after (V : Valuation τ sig (Elt F)) : after ops V (main_arg1 : DevRef τ sig) = V (main_arg1 : DevRef τ sig) := by
  after_results_simp
theorem arg2_after (V : Valuation τ sig (Elt F)) : after ops V (main_arg2 : DevRef τ sig) = V (main_arg2 : DevRef τ sig) := by
  after_results_simp
theorem arg3_after (V : Valuation τ sig (Elt F)) : after ops V (main_arg3 : DevRef τ sig) = V (main_arg3 : DevRef τ sig) := by
  after_results_simp
theorem arg4_after (V : Valuation τ sig (Elt F)) : after ops V (main_arg4 : DevRef τ sig) = V (main_arg4 : DevRef τ sig) := by
  after_results_simp
theorem arg5_after (V : Valuation τ sig (Elt F)) : after ops V (main_arg5 : DevRef τ sig) = V (main_arg5 : DevRef τ sig) := by
  after_results_simp

/-! ## The composed terms are the specification's functions

On the extended reals every host product is the plain sum over the contracted index, a transposed operand read at the
swapped index, a bias row spread over the rows read at its column; none of it needs the entries finite. -/

section Spec

open Idealize.ShloMosaic.ValueIdx Cert.Gnn Cert.Lib.Dense Cert.Lib.DenseNT Cert.Lib.IndexNorm

/-- The product of the adjacency matrix with a feature array: entry (p, q) is row p against column q. -/
theorem dotAdj_eq (A : Mat 10000 10000) (Y : Mat 10000 128) :
    (Host.dotGeneral (F := Ideal) (φ₁ := .f32) (φ₂ := .f32) dot_S10000x10000_S10000x128_S10000x128_1_0_0_1_n_n none A Y : Mat 10000 128)
      = fun i => rowDot A Y (i 0) (i 1) := by
  funext i
  obtain ⟨p, q, rfl⟩ : ∃ p q, i = ix2 p q := ⟨i 0, i 1, eq_ix2 i⟩
  exact Cert.Lib.Dense.dotGeneral_at (φ₁ := .f32) (φ₂ := .f32) dot_S10000x10000_S10000x128_S10000x128_1_0_0_1_n_n rfl rfl rfl rfl rfl rfl A Y p q

/-- The product against a transposed weight matrix: entry (p, q) is row p of the left operand against row q of the
    weights. -/
theorem dotWt_at (Y : Mat 10000 128) (W : Mat 128 128) (p : Fin 10000) (q : Fin 128) :
    Host.dotGeneral (F := Ideal) (φ₁ := .f32) (φ₂ := .f32) dot_S10000x128_S128x128_S10000x128_1_0_0_1_n_n none Y (transpose S128x128 [1, 0] W transposes_S128x128_S128x128_1_0) (ix2 p q)
      = rowRowDot Y W p q := by
  rw [Cert.Lib.Dense.dotGeneral_at (φ₁ := .f32) (φ₂ := .f32) dot_S10000x128_S128x128_S10000x128_1_0_0_1_n_n rfl rfl rfl rfl rfl rfl]
  unfold rowDot rowRowDot
  exact Finset.sum_congr rfl fun k _ => by rw [transpose_ix2_apply]

/-- The first composed term is the specification's value before the nonlinearity: at entry (p, q) the term is
    (r₁ + b₁ q) + (r₂ + b₂ q) and the specification (r₁ + r₂) + (b₁ q + b₂ q), equal in any commutative additive monoid. -/
theorem refPre_eq (X : Cert.Gnn.Mat 10000 128) (A : Cert.Gnn.Mat 10000 10000) (W1 : Cert.Gnn.Mat 128 128) (b1 : Cert.Gnn.Vct 128) (W2 : Cert.Gnn.Mat 128 128) (b2 : Cert.Gnn.Vct 128) :
    refPre (F := Ideal) X A W1 b1 W2 b2 = Cert.Gnn.pre X A W1 b1 W2 b2 := by
  funext i
  obtain ⟨p, q, rfl⟩ : ∃ p q, i = ix2 p q := ⟨i 0, i 1, eq_ix2 i⟩
  unfold refPre
  rw [show (Host.dotGeneral (F := Ideal) (φ₁ := .f32) (φ₂ := .f32) dot_S10000x10000_S10000x128_S10000x128_1_0_0_1_n_n none A X : Mat 10000 128) = ax A X from dotAdj_eq A X,
    show mulf (F := Ideal) (s := S10000x128) (φ := .f32) (ax A X) X = gx A X from rfl,
    show (Host.dotGeneral (F := Ideal) (φ₁ := .f32) (φ₂ := .f32) dot_S10000x10000_S10000x128_S10000x128_1_0_0_1_n_n none A (gx A X) : Mat 10000 128) = axx A X from dotAdj_eq A (gx A X),
    addf_apply, addf_apply, addf_apply, dotWt_at, dotWt_at, bcast_row_rows_apply, bcast_row_rows_apply, pre_ix2]
  exact add_add_add_comm _ _ _ _

/-- The second composed term at an entry is the specification's unit of the entry: where the comparison bit is one
    both are the entry; where it is zero the inner select hands the entry through and one times e^x − 1 is e^x − 1. -/
theorem refElu_apply (x : Mat 10000 128) (i : S10000x128.Idx) : refElu (F := Ideal) x i = Cert.Gnn.elu (x i) := by
  show Scalar.select (Ideal.cmp .ogt (x i) (Ideal.ofBits .f32 0x00000000#32)) (x i)
      (Ideal.ofBits .f32 0x3F800000#32
        * (Ideal.exp (Scalar.select (Ideal.cmp .ogt (x i) (Ideal.ofBits .f32 0x00000000#32)) (Ideal.ofBits .f32 0x00000000#32) (x i)) - 1))
    = Scalar.select (Ideal.cmp .ogt (x i) 0) (x i) (Ideal.exp (x i) - 1)
  rw [Ideal.ofBits_zero_f32, Cert.Gnn.ofBits_one_f32, one_mul]
  rcases BitVec.eq_zero_or_eq_one (Ideal.cmp .ogt (x i) 0) with h | h
  · simp only [h, select_zero]
  · simp only [h, select_one]

/-- The second composed term is the specification's output. -/
theorem refOut_eq (X : Cert.Gnn.Mat 10000 128) (A : Cert.Gnn.Mat 10000 10000) (W1 : Cert.Gnn.Mat 128 128) (b1 : Cert.Gnn.Vct 128) (W2 : Cert.Gnn.Mat 128 128) (b2 : Cert.Gnn.Vct 128) :
    refElu (F := Ideal) (refPre (F := Ideal) X A W1 b1 W2 b2) = Cert.Gnn.out X A W1 b1 W2 b2 := by
  funext i
  rw [refElu_apply, refPre_eq]
  rfl

end Spec

/-! ## The run -/

/-- At the ideal instance, from any memory with zero counters: every weakly fair execution of @main terminates with the
    first result the specification's value before the nonlinearity, the second its output, and the six arguments
    unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v13)
          = Cert.Gnn.pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14)
          = Cert.Gnn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c =>
    ⟨(h c main_v13).trans ((pre_after _).trans (refPre_eq _ _ _ _ _ _)),
      (h c main_v14).trans ((out_after _).trans (refOut_eq _ _ _ _ _ _)),
      (h c main_arg0).trans (arg0_after _),
      (h c main_arg1).trans (arg1_after _),
      (h c main_arg2).trans (arg2_after _),
      (h c main_arg3).trans (arg3_after _),
      (h c main_arg4).trans (arg4_after _),
      (h c main_arg5).trans (arg5_after _)⟩)
    (run_after m ρ)

end Cert.ReferenceIdeal.RefValue

end
-- ==== Proof.lean ====
/-
  A graph layer over a dense adjacency matrix, computed in two row-blocked passes, against its plain reference.

  With A the 10000 × 10000 adjacency matrix, X the 10000 × 128 features, W₁, W₂ the weight matrices and b₁, b₂ the
  biases, the reference computes pre = (A·X)·W₁ᵀ + b₁ + (A·((A·X) ⊙ X))·W₂ᵀ + b₂ and elu(pre). The kernel computes
  A·X and (A·X) ⊙ X in a first pass over blocks of 400 rows, and in a second pass (A·X)·W₁ᵀ + (A·G)·W₂ᵀ + (b₁ + b₂)
  and its exponential linear unit, exp(pre) − 1 below zero. On the extended reals the two agree entry by entry: every
  matrix product is the plain sum over the contracted index on both sides, the four summands are regrouped by
  commutativity and associativity of addition alone, and 1 · (exp x − 1) = exp x − 1. No finiteness is needed.

  The three frames: each kernel program's run is composed from the bias row's two host operations and the two passes,
  each pass's body run once at a symbolic grid point; the reference's run is its operations in a line. The ideal pass
  rewrote nothing, so the idealization claim is trivial.
-/
import proofs.«128646_g1649267442177_cont_week2b_248_8_alg».proof.Defs
import proofs.«128646_g1649267442177_cont_week2b_248_8_alg».proof.Proof.Gen.Kernel
import proofs.«128646_g1649267442177_cont_week2b_248_8_alg».proof.Proof.Gen.KernelIdeal
import proofs.«128646_g1649267442177_cont_week2b_248_8_alg».proof.Proof.Gen.ReferenceIdeal
import proofs.«128646_g1649267442177_cont_week2b_248_8_alg».proof.Proof.Gen.Pre_finite_inputs
import proofs.«128646_g1649267442177_cont_week2b_248_8_alg».proof.Proof.KRun
import proofs.«128646_g1649267442177_cont_week2b_248_8_alg».proof.Proof.KIRun
import proofs.«128646_g1649267442177_cont_week2b_248_8_alg».proof.Proof.KIValue
import proofs.«128646_g1649267442177_cont_week2b_248_8_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.RefValue.run m ρ)

/-- Run from memories agreeing on the six arguments, both programs end with the layer's two functions of them. -/
theorem algebraic : Cert.algebraic_KernelIdeal_ReferenceIdeal := by
  intro m ρ m' ρ' _ hagree
  refine ⟨fun c => Cert.Gnn.pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gnn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.value_run m ρ, ?_⟩
  refine (θ_run Cert.ReferenceIdeal.defs _ _).mono (fun _ h c => ?_) (Cert.ReferenceIdeal.RefValue.run m' ρ')
  obtain ⟨a0, a1, a2, a3, a4, a5⟩ := hagree c
  refine ⟨(h c).1.trans ?_, (h c).2.1.trans ?_, (h c).2.2⟩
  · rw [a0, a1, a2, a3, a4, a5]
  · rw [a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
